-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩

abbrev nBuf : Space → Nat
  | .hbm => 84
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S700000x1, .f32⟩
  | .hbm, ⟨47, _⟩ => ⟨S100000x128, .bf16⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .bf16⟩
  | .hbm, ⟨57, _⟩ => ⟨S700000x128, .f32⟩
  | .hbm, ⟨58, _⟩ => ⟨S700000x128, .f32⟩
  | .hbm, ⟨59, _⟩ => ⟨S700000x128, .f32⟩
  | .hbm, ⟨60, _⟩ => ⟨S_, .f32⟩
  | .hbm, ⟨61, _⟩ => ⟨S100000x128, .f32⟩
  | .hbm, ⟨62, _⟩ => ⟨S700000x1, .i32⟩
  | .hbm, ⟨63, _⟩ => ⟨S100000x128, .f32⟩
  | .hbm, ⟨64, _⟩ => ⟨S100000x128, .bf16⟩
  | .hbm, ⟨65, _⟩ => ⟨S_, .i32⟩
  | .hbm, ⟨66, _⟩ => ⟨S700000, .i32⟩
  | .hbm, ⟨67, _⟩ => ⟨S700000, .i1⟩
  | .hbm, ⟨68, _⟩ => ⟨S_, .i32⟩
  | .hbm, ⟨69, _⟩ => ⟨S700000, .i32⟩
  | .hbm, ⟨70, _⟩ => ⟨S700000, .i32⟩
  | .hbm, ⟨71, _⟩ => ⟨S700000, .i32⟩
  | .hbm, ⟨72, _⟩ => ⟨S700000x1, .i32⟩
  | .hbm, ⟨73, _⟩ => ⟨S700000x128, .bf16⟩
  | .hbm, ⟨74, _⟩ => ⟨S700000x128, .f32⟩
  | .hbm, ⟨75, _⟩ => ⟨S700000x128, .f32⟩
  | .hbm, ⟨76, _⟩ => ⟨S700000x128, .f32⟩
  | .hbm, ⟨77, _⟩ => ⟨S_, .f32⟩
  | .hbm, ⟨78, _⟩ => ⟨S100000x128, .f32⟩
  | .hbm, ⟨79, _⟩ => ⟨S700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S128x128, .f32⟩
  | .local _ .vmem, ⟨9, _⟩ => ⟨S10000x128, .bf16⟩
  | .local _ .vmem, ⟨10, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .bf16 = 32 ∨ (Rect.block (s := S100000x128) S10000x128.size (cc1_transform_3 i) (hinb1_3 i)).WholeWords (EltTy.packing .bf16)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S700000, .i32⟩
  | .hbm, ⟨72, _⟩ => ⟨S700000, .i1⟩
  | .hbm, ⟨73, _⟩ => ⟨S_, .i32⟩
  | .hbm, ⟨74, _⟩ => ⟨S700000, .i32⟩
  | .hbm, ⟨75, _⟩ => ⟨S700000, .i32⟩
  | .hbm, ⟨76, _⟩ => ⟨S700000, .i32⟩
  | .hbm, ⟨77, _⟩ => ⟨S700000x1, .i32⟩
  | .hbm, ⟨78, _⟩ => ⟨S700000, .f32⟩
  | .hbm, ⟨79, _⟩ => ⟨S_, .i32⟩
  | .hbm, ⟨80, _⟩ => ⟨S700000, .i32⟩
  | .hbm, ⟨81, _⟩ => ⟨S700000, .i1⟩
  | .hbm, ⟨82, _⟩ => ⟨S_, .i32⟩
  | .hbm, ⟨83, _⟩ => ⟨S700000, .i32⟩
  | .hbm, ⟨84, _⟩ => ⟨S700000, .i32⟩
  | .hbm, ⟨85, _⟩ => ⟨S700000, .i32⟩
  | .hbm, ⟨86, _⟩ => ⟨S700000x1, .i32⟩
  | .hbm, ⟨87, _⟩ => ⟨S700000, .f32⟩
  | .hbm, ⟨88, _⟩ => ⟨S700000, .f32⟩
  | .hbm, ⟨89, _⟩ => ⟨S_, .i32⟩
  | .hbm, ⟨90, _⟩ => ⟨S700000, .i32⟩
  | .hbm, ⟨91, _⟩ => ⟨S700000, .i1⟩
  | .hbm, ⟨92, _⟩ => ⟨S_, .i32⟩
  | .hbm, ⟨93, _⟩ => ⟨S700000, .i32⟩
  | .hbm, ⟨94, _⟩ => ⟨S700000, .i32⟩
  | .hbm, ⟨95, _⟩ => ⟨S700000, .i32⟩
  | .hbm, ⟨96, _⟩ => ⟨S700000x1, .i32⟩
  | .hbm, ⟨97, _⟩ => ⟨S700000x128, .f32⟩
  | .hbm, ⟨98, _⟩ => ⟨S700000x1, .f32⟩
  | .hbm, ⟨99, _⟩ => ⟨S700000x128, .f32⟩
  | .hbm, ⟨100, _⟩ => ⟨S700000x128, .f32⟩
  | .hbm, ⟨101, _⟩ => ⟨S_, .f32⟩
  | .hbm, ⟨102, _⟩ => ⟨S100000x128, .f32⟩
  | .hbm, ⟨103, _⟩ => ⟨S700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  dot_S100000x128_S128x128_S100000x128_1_0_0_1_n_n_wf : DotDims.WF S100000x128 S128x128 S100000x128 [1] [0] [0] [1] [] []
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Gcn.lean ====
/-
  Two graph-convolution layers over a graph with a self loop at every node, as ONE function of the six argument arrays.

  The edge list `e` is two rows of 600000 node numbers.  `src e` and `dst e` are its two rows, each followed by the
  node numbers 0 … 99999 (the self loops): 700000 edges.  `wrap s` is an index column: a negative entry is moved up by
  the number of nodes.  `deg d` counts, per node, the edges that end there; `dinv d` is its inverse square root where
  the count is positive and zero elsewhere; `norm s d` is, per edge, the product of `dinv` at the edge's two ends.
  `agg h s d n` sends row `s k` of `h`, scaled by the edge's weight, along every edge `k` and adds up what arrives at
  each node.  `lin x W` is the matrix product, `rowb b` a bias row repeated over the nodes, and `hidden a b` the
  rectified first layer.  `out` composes them:
      out = agg (lin (max (agg (lin x W1) + b1) 0) W2) + b2.
  Gathers and scatter-adds are kept as the host's own operations, applied to whatever indices the edge list holds.
-/
import proofs.«178791_j29257317220812_2_alg».proof.Proof.Gen.ReferenceIdeal

noncomputable section

namespace Cert.Gcn

open Cert.ReferenceIdeal Cert.ReferenceIdeal.Gen Idealize.ShloMosaic

variable {F : FTy → Type} [FloatOps F]

/-- The edges' first ends: row 0 of the edge list, then every node once. -/
def src (e : (⟨S2x600000, .i32⟩ : BufTy).Contents (Elt F)) : (⟨S700000, .i32⟩ : BufTy).Contents (Elt F) :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The edges' second ends: row 1 of the edge list, then every node once. -/
def dst (e : (⟨S2x600000, .i32⟩ : BufTy).Contents (Elt F)) : (⟨S700000, .i32⟩ : BufTy).Contents (Elt F) :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- Node numbers as a column of row indices: a negative one is moved up by the number of nodes. -/
def wrap (s : (⟨S700000, .i32⟩ : BufTy).Contents (Elt F)) : (⟨S700000x1, .i32⟩ : BufTy).Contents (Elt F) :=
  broadcastInDim S700000x1 ![0] bcast_S700000_S700000x1_0 (select (cmpi .slt s (broadcastInDim S700000 ![] bcast_S_S700000 (constantI S_ 32 0#32))) (addi s (broadcastInDim S700000 ![] bcast_S_S700000 (constantI S_ 32 100000#32))) s)

/-- Per node, the number of edges that end there: ones added up along the edges' second ends. -/
def deg (d : (⟨S700000, .i32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 d) (broadcastInDim S700000 ![] bcast_S_S700000 (constant S_ .f32 0x3F800000#32))

/-- The inverse square root of the count where it is positive, zero elsewhere. -/
def dinv (d : (⟨S700000, .i32⟩ : BufTy).Contents (Elt F)) : (⟨S100000, .f32⟩ : BufTy).Contents (Elt F) :=
  select (cmpf .ogt (deg d) (broadcastInDim S100000 ![] bcast_S_S100000 (constant S_ .f32 0x00000000#32))) (Host.rsqrt (deg d)) (broadcastInDim S100000 ![] bcast_S_S100000 (id (constant S_ .f32 0x00000000#32)))

/-- Per edge, the product of `dinv` at its two ends. -/
def norm (s d : (⟨S700000, .i32⟩ : BufTy).Contents (Elt F)) : (⟨S700000, .f32⟩ : BufTy).Contents (Elt F) :=
  mulf (Host.gather gather_S100000_S700000x1_S700000_n_0_n_n_0_1_1 (dinv d) (wrap s)) (Host.gather gather_S100000_S700000x1_S700000_n_0_n_n_0_1_1 (dinv d) (wrap d))

/-- The edge weights as a column. -/
def normCol (s d : (⟨S700000, .i32⟩ : BufTy).Contents (Elt F)) : (⟨S700000x1, .f32⟩ : BufTy).Contents (Elt F) :=
  broadcastInDim S700000x1 ![0] bcast_S700000_S700000x1_0 (norm s d)

/-- One aggregation: along every edge the row of `h` at its first end times the edge's weight `n`, added up at its
    second end. -/
def agg (h : (⟨S100000x128, .f32⟩ : BufTy).Contents (Elt F)) (s d : (⟨S700000, .i32⟩ : BufTy).Contents (Elt F))
    (n : (⟨S700000x1, .f32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d) (mulf (Host.gather gather_S100000x128_S700000x1_S700000x128_1_0_n_n_0_1_1128 h (wrap s)) (broadcastInDim S700000x128 ![0, 1] bcast_S700000x1_S700000x128_0_1 n))

/-- A bias row repeated over the nodes. -/
def rowb (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The node features times a weight matrix. -/
def lin (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- The first layer's output with its bias, rectified. -/
def hidden (a : (⟨S100000x128, .f32⟩ : BufTy).Contents (Elt F)) (b : (⟨S128, .f32⟩ : BufTy).Contents (Elt F)) :
    (⟨S100000x128, .f32⟩ : BufTy).Contents (Elt F) :=
  maximumf (addf a (rowb b)) (broadcastInDim S100000x128 ![] bcast_S_S100000x128 (constant S_ .f32 0x00000000#32))

/-- The second aggregation with its bias, from the first layer's weighted features `h1`. -/
def last (h1 : (⟨S100000x128, .f32⟩ : BufTy).Contents (Elt F)) (s d : (⟨S700000, .i32⟩ : BufTy).Contents (Elt F))
    (n : (⟨S700000x1, .f32⟩ : BufTy).Contents (Elt F)) (b2 : (⟨S128, .f32⟩ : BufTy).Contents (Elt F)) :
    (⟨S100000x128, .f32⟩ : BufTy).Contents (Elt F) :=
  addf (agg h1 s d n) (rowb b2)

/-- Both layers. -/
def out (x : (⟨S100000x128, .f32⟩ : BufTy).Contents (Elt F)) (e : (⟨S2x600000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) :
    (⟨S100000x128, .f32⟩ : BufTy).Contents (Elt F) :=
  last (lin (hidden (agg (lin x W1) (src e) (dst e) (normCol (src e) (dst e))) b1) W2) (src e) (dst e) (normCol (src e) (dst e)) b2

end Cert.Gcn

end
-- ==== Proof.RefValue.lean ====
/-
  The reference's result is the two-layer function `Gcn.out` of its arguments: its run's composed term is that
  function's definition written out, so the two agree by unfolding the definitions.
-/
import proofs.«178791_j29257317220812_2_alg».proof.Proof.RefRun
import proofs.«178791_j29257317220812_2_alg».proof.Proof.Gcn

noncomputable section

namespace Cert.Gcn

open Cert.ReferenceIdeal Cert.ReferenceIdeal.Gen Idealize.ShloMosaic Idealize.ShloMosaic.TcCoe Idealize.SL.Sem

variable {F : FTy → Type} [FloatOps F]

set_option maxRecDepth 16384 in
/-- What the reference leaves in its result array is `Gcn.out` of the six arguments. -/
theorem ref_eq (m : (ℓ : Loc nD τ sig) → Buf (Elt F) ℓ) (c : Dev nD) :
    Cert.ReferenceIdeal.ValueP.res_main_v79 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v79
  rfl

end Cert.Gcn

end
-- ==== Proof.KRun.lean ====
/-
  The idealized kernel's run with its result array NAMED.  The program is seven segments: three stretches of host
  operations, the first matrix-product region, a stretch, the second region, a last stretch.  Every unscoped buffer ends at
  the contents the fold of the segments leaves (`W7`): for the result array that is stated here, beside the six
  argument arrays ending as launched.  The run is the library's several-region launch over the generated segments.
-/
import proofs.«178791_j29257317220812_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's program terminates, nothing faulting,
    with the result array at the last boundary's contents and the argument arrays as launched. -/
theorem run_named : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.KHost.lean ====
/-
  The host operations around the two regions, one stretch at a time, from ANY buffer contents `U` the stretch is entered
  with: each lemma reads one buffer after the stretch as the graph-convolution function's piece of the buffers before it.

  Before the first region: the edge ends with their self loops, the inverse square roots of the node degrees, and the
  edge weights as a column.  Between the regions: the first aggregation of the first region's rows along the edges.
  After the second region: the second aggregation and the output bias.  The rows gathered from a region's output pass
  through a widening of the float format, which is the identity on the extended reals.
-/
import proofs.«178791_j29257317220812_2_alg».proof.Proof.Gen.KernelIdeal.Launch
import proofs.«178791_j29257317220812_2_alg».proof.Proof.Gcn
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (U : Valuation τ sig (Elt Ideal))

/-! ## Before the first region -/

/-- The edges' first ends. -/
theorem src_eq : after hostOps0 U (Proc.devRef .tc main_v3) = Cert.Gcn.src (F := Ideal) (U (Proc.devRef .tc main_arg1)) := by
  dsimp only [hostOps0]; after_results; rfl

/-- The edges' second ends. -/
theorem dst_eq : after hostOps0 U (Proc.devRef .tc main_v6) = Cert.Gcn.dst (F := Ideal) (U (Proc.devRef .tc main_arg1)) := by
  dsimp only [hostOps0]; after_results; rfl

/-- Whether a node has an edge ending at it. -/
theorem pos_eq : after hostOps0 U (Proc.devRef .tc main_v12)
    = cmpf .ogt (Cert.Gcn.deg (F := Ideal) (Cert.Gcn.dst (F := Ideal) (U (Proc.devRef .tc main_arg1))))
        (broadcastInDim S100000 ![] bcast_S_S100000 (constant (F := Ideal) S_ .f32 0x00000000#32)) := by
  dsimp only [hostOps0]; after_results; rfl

/-- The inverse square roots of the degrees, before the nodes without an edge are set to zero. -/
theorem rsqrt_eq : after hostOps0 U (Proc.devRef .tc main_v13)
    = (Host.rsqrt (F := Ideal) (φ := .f32) (Cert.Gcn.deg (F := Ideal) (Cert.Gcn.dst (F := Ideal) (U (Proc.devRef .tc main_arg1))))
        : (⟨S100000, .f32⟩ : BufTy).Contents (Elt Ideal)) := by
  dsimp only [hostOps0]; after_results; rfl

/-- The zero those nodes are set to. -/
theorem zero_eq : after hostOps0 U (Proc.devRef .tc main_cst_2) = constant (F := Ideal) S_ .f32 0x00000000#32 := by
  dsimp only [hostOps0]; after_results

/-- The choice between the two, node by node. -/
theorem where_eq : after hostOps0_1 U (Proc.devRef .tc main_v14)
    = select (U (Proc.devRef .tc main_v12) : (⟨S100000, .i1⟩ : BufTy).Contents (Elt Ideal))
        (U (Proc.devRef .tc main_v13) : (⟨S100000, .f32⟩ : BufTy).Contents (Elt Ideal))
        (broadcastInDim S100000 ![] bcast_S_S100000 (id (U (Proc.devRef .tc main_cst_2) : (⟨S_, .f32⟩ : BufTy).Contents (Elt Ideal)))) := by
  dsimp only [hostOps0_1]; after_results; rfl

theorem keep01_v3 : after hostOps0_1 U (Proc.devRef .tc main_v3) = U (Proc.devRef .tc main_v3) := by
  dsimp only [hostOps0_1]; after_results
theorem keep01_v6 : after hostOps0_1 U (Proc.devRef .tc main_v6) = U (Proc.devRef .tc main_v6) := by
  dsimp only [hostOps0_1]; after_results

/-- The edge weights as a column, from the inverse square roots and the two ends. -/
theorem norm_eq : after hostOps0_2 U (Proc.devRef .tc main_v30)
    = (broadcastInDim S700000x1 ![0] bcast_S700000_S700000x1_0
        (mulf (F := Ideal) (φ := .f32) (Host.gather gather_S100000_S700000x1_S700000_n_0_n_n_0_1_1 (U (Proc.devRef .tc main_v14) : (⟨S100000, .f32⟩ : BufTy).Contents (Elt Ideal)) (Cert.Gcn.wrap (F := Ideal) (U (Proc.devRef .tc main_v3))))
          (Host.gather gather_S100000_S700000x1_S700000_n_0_n_n_0_1_1 (U (Proc.devRef .tc main_v14) : (⟨S100000, .f32⟩ : BufTy).Contents (Elt Ideal)) (Cert.Gcn.wrap (F := Ideal) (U (Proc.devRef .tc main_v6)))))
        : (⟨S700000x1, .f32⟩ : BufTy).Contents (Elt Ideal)) := by
  dsimp only [hostOps0_2]; after_results_simp; rfl

theorem keep02_v3 : after hostOps0_2 U (Proc.devRef .tc main_v3) = U (Proc.devRef .tc main_v3) := by
  dsimp only [hostOps0_2]; after_results_simp
theorem keep02_v6 : after hostOps0_2 U (Proc.devRef .tc main_v6) = U (Proc.devRef .tc main_v6) := by
  dsimp only [hostOps0_2]; after_results_simp

/-- No operation before the first region writes an argument array. -/
theorem keepPre_arg0 : after hostOps0_2 (after hostOps0_1 (after hostOps0 U)) (Proc.devRef .tc main_arg0) = U (Proc.devRef .tc main_arg0) := by
  dsimp only [hostOps0, hostOps0_1, hostOps0_2]; after_results_simp
theorem keepPre_arg2 : after hostOps0_2 (after hostOps0_1 (after hostOps0 U)) (Proc.devRef .tc main_arg2) = U (Proc.devRef .tc main_arg2) := by
  dsimp only [hostOps0, hostOps0_1, hostOps0_2]; after_results_simp
theorem keepPre_arg3 : after hostOps0_2 (after hostOps0_1 (after hostOps0 U)) (Proc.devRef .tc main_arg3) = U (Proc.devRef .tc main_arg3) := by
  dsimp only [hostOps0, hostOps0_1, hostOps0_2]; after_results_simp
theorem keepPre_arg4 : after hostOps0_2 (after hostOps0_1 (after hostOps0 U)) (Proc.devRef .tc main_arg4) = U (Proc.devRef .tc main_arg4) := by
  dsimp only [hostOps0, hostOps0_1, hostOps0_2]; after_results_simp
theorem keepPre_arg5 : after hostOps0_2 (after hostOps0_1 (after hostOps0 U)) (Proc.devRef .tc main_arg5) = U (Proc.devRef .tc main_arg5) := by
  dsimp only [hostOps0, hostOps0_1, hostOps0_2]; after_results_simp

/-! ## Between the regions -/

/-- The first aggregation, of the first region's output `main_v31`. -/
theorem agg1_eq : after hostOps1 U (Proc.devRef .tc main_v44)
    = Cert.Gcn.agg (F := Ideal) (U (Proc.devRef .tc main_v31)) (U (Proc.devRef .tc main_v3)) (U (Proc.devRef .tc main_v6)) (U (Proc.devRef .tc main_v30)) := by
  dsimp only [hostOps1]; after_results_simp; rfl

theorem keep1_v3 : after hostOps1 U (Proc.devRef .tc main_v3) = U (Proc.devRef .tc main_v3) := by
  dsimp only [hostOps1]; after_results_simp
theorem keep1_v6 : after hostOps1 U (Proc.devRef .tc main_v6) = U (Proc.devRef .tc main_v6) := by
  dsimp only [hostOps1]; after_results_simp
theorem keep1_v30 : after hostOps1 U (Proc.devRef .tc main_v30) = U (Proc.devRef .tc main_v30) := by
  dsimp only [hostOps1]; after_results_simp
theorem keep1_arg3 : after hostOps1 U (Proc.devRef .tc main_arg3) = U (Proc.devRef .tc main_arg3) := by
  dsimp only [hostOps1]; after_results_simp
theorem keep1_arg4 : after hostOps1 U (Proc.devRef .tc main_arg4) = U (Proc.devRef .tc main_arg4) := by
  dsimp only [hostOps1]; after_results_simp
theorem keep1_arg5 : after hostOps1 U (Proc.devRef .tc main_arg5) = U (Proc.devRef .tc main_arg5) := by
  dsimp only [hostOps1]; after_results_simp

/-! ## After the second region -/

/-- The second aggregation, of the second region's output `main_v45`, with the output bias. -/
theorem last_eq : after hostOps2 U (Proc.devRef .tc main_v61)
    = Cert.Gcn.last (F := Ideal) (U (Proc.devRef .tc main_v45)) (U (Proc.devRef .tc main_v3)) (U (Proc.devRef .tc main_v6)) (U (Proc.devRef .tc main_v30))
        (U (Proc.devRef .tc main_arg5)) := by
  dsimp only [hostOps2]; after_results_simp; rfl

end Cert.KernelIdeal.Host

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Body.lean ====
/-
  The two kernel bodies' stored values read at an index, on the extended reals.

  The first body stores the product of its `[10000, 128]` block by the whole `[128, 128]` weight matrix: at `(p, e)`
  the sum over `k` of `x[p, k] · w[k, e]` (the roundings on the way in and out are the identity there).  The second adds
  the bias row to its block, takes the maximum with zero and multiplies by its weight matrix: at `(p, e)` the sum over
  `k` of `max (a[p, k] + b[k]) 0 · w[k, e]`.
-/
import proofs.«178791_j29257317220812_2_alg».proof.Proof.Gen.KernelIdeal.Skeleton
import proofs.«178791_j29257317220812_2_alg».proof.Proof.LibDot
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- The block product's dimension numbers: rows of the block against columns of the weights. -/
abbrev dotB : DotDims S10000x128 S128x128 S10000x128 := dot_S10000x128_S128x128_S10000x128_1_0_0_1_n_n

theorem dotB_l0 (i : S10000x128.Idx) (q : dotB.contr.Idx) : (dotB.lhsIdx i q 0).val = (i 0).val := by
  unfold DotDims.lhsIdx
  rw [dif_neg (show ¬(0 : Fin S10000x128.rank) ∈ dotB.lhsBatch by decide), dif_pos (show (0 : Fin S10000x128.rank) ∈ dotB.lhsNonContracting by decide)]
  rfl
theorem dotB_l1 (i : S10000x128.Idx) (q : dotB.contr.Idx) : (dotB.lhsIdx i q 1).val = (q ⟨0, by decide⟩).val :=
  dotB.lhsIdx_val_of_single rfl i q
theorem dotB_r0 (i : S10000x128.Idx) (q : dotB.contr.Idx) : (dotB.rhsIdx i q 0).val = (q ⟨0, by decide⟩).val :=
  dotB.rhsIdx_val_of_single rfl i q
theorem dotB_r1 (i : S10000x128.Idx) (q : dotB.contr.Idx) : (dotB.rhsIdx i q 1).val = (i 1).val := by
  unfold DotDims.rhsIdx
  rw [dif_neg (show ¬(1 : Fin S128x128.rank) ∈ dotB.rhsBatch by decide), dif_pos (show (1 : Fin S128x128.rank) ∈ dotB.rhsNonContracting by decide)]
  rfl

/-- The block product into zero at `(p, e)`, whatever the operands' formats. -/
theorem dotB_apply {φ₁ φ₂ : FTy} (A : FVec Ideal S10000x128 φ₁) (B : FVec Ideal S128x128 φ₂) (p : Fin 10000) (e : Fin 128) :
    FloatOps.matmul dotB none A B (constant S10000x128 .f32 0x00000000#32) (ix2 p e) = ∑ k : Fin 128, A (ix2 p k) * B (ix2 k e) :=
  Cert.LibDot.matmul_zero_apply (m := 10000) (k := 128) (n := 128) dotB rfl rfl dotB_l0 dotB_l1 dotB_r0 dotB_r1 none A B p e

/-- The first body's stored value at `(p, e)`. -/
theorem pay0_apply (v0 : Vec Ideal S10000x128 .f32) (v2 : Vec Ideal S128x128 .f32) (p : Fin 10000) (e : Fin 128) :
    k0_pay1 (F := Ideal) v0 v2 (ix2 p e) = ∑ k : Fin 128, v0 (ix2 p k) * v2 (ix2 k e) :=
  dotB_apply (truncf .bf16 v0 bitsLt_bf16_f32) (truncf .bf16 v2 bitsLt_bf16_f32) p e

/-- The bias row under a block: the `[128]` vector as one row, repeated over the block's rows. -/
theorem bias_apply (v2 : Vec Ideal S128 .f32) (p : Fin 10000) (k : Fin 128) :
    broadcastTo S10000x128 (shapeCast S1x128 v2 shapeCasts_S128_S1x128) broadcasts_S1x128_S10000x128 (ix2 p k) = v2 (ix1 k) :=
  (broadcastTo_1b_ab_apply (a := 10000) (b := 128) _ broadcasts_S1x128_S10000x128 p k).trans
    (shapeCast_a_1a_apply (a := 128) v2 shapeCasts_S128_S1x128 (0 : Fin 1) k)

/-- The second body's rectified operand at `(p, k)`. -/
theorem act_apply (v0 : Vec Ideal S10000x128 .f32) (v2 : Vec Ideal S128 .f32) (p : Fin 10000) (k : Fin 128) :
    maximumf (addf (shapeCast S10000x128 v0 shapeCasts_S10000x128_S10000x128)
        (broadcastTo S10000x128 (shapeCast S1x128 v2 shapeCasts_S128_S1x128) broadcasts_S1x128_S10000x128))
      (broadcast S10000x128 (Scalar.ofBits (F := Ideal) .f32 0x00000000#32)) (ix2 p k)
      = max (v0 (ix2 p k) + v2 (ix1 k)) (Ideal.ofBits .f32 0x00000000#32) := by
  rw [maximumf_apply, addf_apply, bias_apply, shapeCast_self]
  rfl

/-- The second body's stored value at `(p, e)`. -/
theorem pay1_apply (v0 : Vec Ideal S10000x128 .f32) (v2 : Vec Ideal S128 .f32) (v9 : Vec Ideal S128x128 .f32)
    (p : Fin 10000) (e : Fin 128) :
    k1_pay1 (F := Ideal) v0 v2 v9 (ix2 p e)
      = ∑ k : Fin 128, max (v0 (ix2 p k) + v2 (ix1 k)) (Ideal.ofBits .f32 0x00000000#32) * v9 (ix2 k e) := by
  refine (dotB_apply (truncf .bf16 (maximumf (addf (shapeCast S10000x128 v0 shapeCasts_S10000x128_S10000x128)
        (broadcastTo S10000x128 (shapeCast S1x128 v2 shapeCasts_S128_S1x128) broadcasts_S1x128_S10000x128))
      (broadcast S10000x128 (Scalar.ofBits (F := Ideal) .f32 0x00000000#32))) bitsLt_bf16_f32)
    (truncf .bf16 v9 bitsLt_bf16_f32) p e).trans ?_
  refine Finset.sum_congr rfl fun k _ => ?_
  exact congrArg (· * v9 (ix2 k e)) (act_apply v0 v2 p k)

end Cert.KernelIdeal.Body

end
-- ==== Proof.GcnAt.lean ====
/-
  The arithmetic pieces of the two-layer function read at an index, on the extended reals: the weight product at
  `(p, e)` is the sum over `k` of `x[p, k] · W[k, e]`; the bias row repeated over the nodes reads, at `(p, k)`, the bias
  at `k`; the rectified first layer at `(p, k)` is `max (a[p, k] + b[k]) 0`.
-/
import proofs.«178791_j29257317220812_2_alg».proof.Proof.Gcn
import proofs.«178791_j29257317220812_2_alg».proof.Proof.LibDot
import Idealize.ShloMosaic.Lib.Pipeline.Value

noncomputable section

open scoped BigOperators

namespace Cert.Gcn

open Cert.ReferenceIdeal Cert.ReferenceIdeal.Gen Idealize.ShloMosaic Idealize.ShloMosaic.ValueIdx

/-- The whole product's dimension numbers: rows of the features against columns of the weights. -/
abbrev dotR : DotDims S100000x128 S128x128 S100000x128 := dot_S100000x128_S128x128_S100000x128_1_0_0_1_n_n

theorem dotR_l0 (i : S100000x128.Idx) (q : dotR.contr.Idx) : (dotR.lhsIdx i q 0).val = (i 0).val := by
  unfold DotDims.lhsIdx
  rw [dif_neg (show ¬(0 : Fin S100000x128.rank) ∈ dotR.lhsBatch by decide), dif_pos (show (0 : Fin S100000x128.rank) ∈ dotR.lhsNonContracting by decide)]
  rfl
theorem dotR_l1 (i : S100000x128.Idx) (q : dotR.contr.Idx) : (dotR.lhsIdx i q 1).val = (q ⟨0, by decide⟩).val :=
  dotR.lhsIdx_val_of_single rfl i q
theorem dotR_r0 (i : S100000x128.Idx) (q : dotR.contr.Idx) : (dotR.rhsIdx i q 0).val = (q ⟨0, by decide⟩).val :=
  dotR.rhsIdx_val_of_single rfl i q
theorem dotR_r1 (i : S100000x128.Idx) (q : dotR.contr.Idx) : (dotR.rhsIdx i q 1).val = (i 1).val := by
  unfold DotDims.rhsIdx
  rw [dif_neg (show ¬(1 : Fin S128x128.rank) ∈ dotR.rhsBatch by decide), dif_pos (show (1 : Fin S128x128.rank) ∈ dotR.rhsNonContracting by decide)]
  rfl

/-- The weight product at `(p, e)`. -/
theorem lin_apply (x : (⟨S100000x128, .f32⟩ : BufTy).Contents (Elt Ideal)) (W : (⟨S128x128, .f32⟩ : BufTy).Contents (Elt Ideal))
    (p : Fin 100000) (e : Fin 128) :
    lin (F := Ideal) x W (ix2 p e) = ∑ k : Fin 128, x (ix2 p k) * W (ix2 k e) :=
  Cert.LibDot.dotGeneral_apply (m := 100000) (k := 128) (n := 128) dotR rfl rfl dotR_l0 dotR_l1 dotR_r0 dotR_r1 none .single x W p e

/-- The bias row repeated over the nodes, at `(p, k)`. -/
theorem rowb_apply (b : (⟨S128, .f32⟩ : BufTy).Contents (Elt Ideal)) (p : Fin 100000) (k : Fin 128) :
    rowb (F := Ideal) b (ix2 p k) = b (ix1 k) := by
  unfold rowb
  refine (broadcastInDim_apply _ bcast_S1x128_S100000x128_0_1 _ (ix2 p k) (ix2 (0 : Fin 1) k) fun a => ?_).trans ?_
  · match a with
    | ⟨0, _⟩ => rfl
    | ⟨1, _⟩ => rfl
  · refine broadcastInDim_apply _ bcast_S128_S1x128_1 b (ix2 (0 : Fin 1) k) (ix1 k) fun a => ?_
    match a with
    | ⟨0, _⟩ => rfl

/-- The rectified first layer at `(p, k)`. -/
theorem hidden_apply (a : (⟨S100000x128, .f32⟩ : BufTy).Contents (Elt Ideal)) (b : (⟨S128, .f32⟩ : BufTy).Contents (Elt Ideal))
    (p : Fin 100000) (k : Fin 128) :
    hidden (F := Ideal) a b (ix2 p k) = max (a (ix2 p k) + b (ix1 k)) (Ideal.ofBits .f32 0x00000000#32) := by
  unfold hidden
  rw [maximumf_apply, addf_apply, rowb_apply]
  rfl

end Cert.Gcn

end
-- ==== Proof.Region0.lean ====
/-
  The first region's output array after its ten grid points: the product of the node features by the first weight matrix.

  Point `t` stages rows `10000 t … 10000 t + 9999` of the features and the whole weight matrix, and writes back the
  product of the two as rows `10000 t …` of the output.  Row `r` of the output is therefore written by point
  `r / 10000`, and the ten blocks tile the array: the array ends holding the whole product.
-/
import proofs.«178791_j29257317220812_2_alg».proof.Proof.Gen.KernelIdeal.Frame
import proofs.«178791_j29257317220812_2_alg».proof.Proof.Body
import proofs.«178791_j29257317220812_2_alg».proof.Proof.GcnAt
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and output windows move down one block per point, the weight
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `10000 t …` of the features. -/
theorem feat_apply (c : Dev nD) (t : Fin cfg0.N) (p : Fin 10000) (k : Fin 128) (P : Fin 100000) (hP : P.val = t.val * 10000 + p.val) :
    (iblk0 V c 0 t : Vec Ideal S10000x128 .f32) (ix2 p k) = (V c main_arg0 : S100000x128.Idx → EReal) (ix2 P k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 10000 + 1 * p.val = P.val; rw [e0, hP]; omega
  | ⟨1, _⟩ => show win0_0.index t 1 * 128 + 1 * k.val = k.val; rw [e1]; omega

/-- The weight window's block at every point is the whole weight matrix. -/
theorem weight_apply (c : Dev nD) (t : Fin cfg0.N) (k : Fin 128) (e : Fin 128) :
    (iblk0 V c 1 t : Vec Ideal S128x128 .f32) (ix2 k e) = (V c main_arg2 : S128x128.Idx → EReal) (ix2 k e) := by
  obtain ⟨-, -, e2, e3, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 128 + 1 * k.val = k.val; rw [e2]; omega
  | ⟨1, _⟩ => show win0_1.index t 1 * 128 + 1 * e.val = e.val; rw [e3]; omega

/-- What point `t` writes back is block `t` of the whole product. -/
theorem flushed_eq (c : Dev nD) (t : Fin cfg0.N) :
    (dat0 V c).flushed 2 t = ((cfg0.win 2).blk t).view.read (Elt Ideal) (Cert.Gcn.lin (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  refine funext fun (j : S10000x128.Idx) => ?_
  obtain ⟨p, e, rfl⟩ : ∃ (p : Fin 10000) (e : Fin 128), j = ix2 p e := ⟨j 0, j 1, eq_ix2 j⟩
  obtain ⟨-, -, -, -, e4, e5⟩ := idx_facts t
  have hN : cfg0.N = 10 := N_0
  have hP : t.val * 10000 + p.val < 100000 := by have := t.isLt; omega
  have hemb : ((cfg0.win 2).blk t).view.emb (ix2 p e) = (ix2 (⟨t.val * 10000 + p.val, hP⟩ : Fin 100000) e : S100000x128.Idx) := by
    funext a
    apply Fin.ext
    match a with
    | ⟨0, _⟩ => show win0_2.index t 0 * 10000 + 1 * p.val = t.val * 10000 + p.val; rw [e4]; omega
    | ⟨1, _⟩ => show win0_2.index t 1 * 128 + 1 * e.val = e.val; rw [e5]; omega
  show k0_pay1 (iblk0 V c 0 t) (iblk0 V c 1 t) (ix2 p e)
    = Cert.Gcn.lin (F := Ideal) (V c main_arg0) (V c main_arg2) (((cfg0.win 2).blk t).view.emb (ix2 p e))
  rw [hemb]
  refine (Body.pay0_apply (iblk0 V c 0 t) (iblk0 V c 1 t) p e).trans ?_
  refine Eq.trans ?_ (Cert.Gcn.lin_apply (V c main_arg0) (V c main_arg2) ⟨t.val * 10000 + p.val, hP⟩ e).symm
  refine Finset.sum_congr rfl fun k _ => ?_
  rw [feat_apply V c t p k ⟨t.val * 10000 + p.val, hP⟩ rfl, weight_apply V c t k e]

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every index of the output is in the block of the point its row falls to. -/
theorem cover (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 10 := N_0
  have ht : (i 0).val / 10000 < cfg0.N := by rw [hN]; omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- The output array after the region: the whole product of the arrays the region was entered with. -/
theorem arr_eq (c : Dev nD) :
    (dat0 V c).arrAt 2 cfg0.N = Cert.Gcn.lin (F := Ideal) (V c main_arg0) (V c main_arg2) :=
  (dat0 V c).arrAt_eq_of_cover 2 _ (fun t _ => flushed_eq V c t) cover

end Cert.KernelIdeal.Region0

end
-- ==== Proof.Region1.lean ====
/-
  The second region's output array after its ten grid points: the rectified first layer times the second weight matrix.

  Point `t` stages rows `10000 t … 10000 t + 9999` of the aggregated features, the whole bias vector and the whole
  weight matrix, and writes back `max (a + b) 0` times the weights as rows `10000 t …` of the output.  The ten
  blocks tile the array: the array ends holding the whole product of the rectified layer by the weights.
-/
import proofs.«178791_j29257317220812_2_alg».proof.Proof.Gen.KernelIdeal.Frame
import proofs.«178791_j29257317220812_2_alg».proof.Proof.Body
import proofs.«178791_j29257317220812_2_alg».proof.Proof.GcnAt
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the feature and output windows move down one block per point, the bias and
    weight windows stay. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point `t` is rows `10000 t …` of the aggregated features. -/
theorem feat_apply (c : Dev nD) (t : Fin cfg1.N) (p : Fin 10000) (k : Fin 128) (P : Fin 100000) (hP : P.val = t.val * 10000 + p.val) :
    (iblk1 V c 0 t : Vec Ideal S10000x128 .f32) (ix2 p k) = (V c main_v44 : S100000x128.Idx → EReal) (ix2 P k) := by
  obtain ⟨e0, e1, -⟩ := idx_facts t
  unfold iblk1
  rw [View.read_apply]
  show V c main_v44 _ = V c main_v44 _
  refine congrArg (V c main_v44) ?_
  funext a
  apply Fin.ext
  match a with
  | ⟨0, _⟩ => show win1_0.index t 0 * 10000 + 1 * p.val = P.val; rw [e0, hP]; omega
  | ⟨1, _⟩ => show win1_0.index t 1 * 128 + 1 * k.val = k.val; rw [e1]; omega

/-- The bias window's block at every point is the whole bias vector. -/
theorem bias_apply (c : Dev nD) (t : Fin cfg1.N) (k : Fin 128) :
    (iblk1 V c 1 t : Vec Ideal S128 .f32) (ix1 k) = (V c main_arg3 : S128.Idx → EReal) (ix1 k) := by
  obtain ⟨-, -, e2, -⟩ := idx_facts t
  unfold iblk1
  rw [View.read_apply]
  show V c main_arg3 _ = V c main_arg3 _
  refine congrArg (V c main_arg3) ?_
  funext a
  apply Fin.ext
  match a with
  | ⟨0, _⟩ => show win1_1.index t 0 * 128 + 1 * k.val = k.val; rw [e2]; omega

/-- The weight window's block at every point is the whole weight matrix. -/
theorem weight_apply (c : Dev nD) (t : Fin cfg1.N) (k : Fin 128) (e : Fin 128) :
    (iblk1 V c 2 t : Vec Ideal S128x128 .f32) (ix2 k e) = (V c main_arg4 : S128x128.Idx → EReal) (ix2 k e) := by
  obtain ⟨-, -, -, e3, e4, -⟩ := idx_facts t
  unfold iblk1
  rw [View.read_apply]
  show V c main_arg4 _ = V c main_arg4 _
  refine congrArg (V c main_arg4) ?_
  funext a
  apply Fin.ext
  match a with
  | ⟨0, _⟩ => show win1_2.index t 0 * 128 + 1 * k.val = k.val; rw [e3]; omega
  | ⟨1, _⟩ => show win1_2.index t 1 * 128 + 1 * e.val = e.val; rw [e4]; omega

/-- What point `t` writes back is block `t` of the rectified layer times the weights. -/
theorem flushed_eq (c : Dev nD) (t : Fin cfg1.N) :
    (dat1 V c).flushed 3 t = ((cfg1.win 3).blk t).view.read (Elt Ideal)
      (Cert.Gcn.lin (F := Ideal) (Cert.Gcn.hidden (F := Ideal) (V c main_v44) (V c main_arg3)) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S128) hz1]
  refine funext fun (j : S10000x128.Idx) => ?_
  obtain ⟨p, e, rfl⟩ : ∃ (p : Fin 10000) (e : Fin 128), j = ix2 p e := ⟨j 0, j 1, eq_ix2 j⟩
  obtain ⟨-, -, -, -, -, e5, e6⟩ := idx_facts t
  have hN : cfg1.N = 10 := N_1
  have hP : t.val * 10000 + p.val < 100000 := by have := t.isLt; omega
  have hemb : ((cfg1.win 3).blk t).view.emb (ix2 p e) = (ix2 (⟨t.val * 10000 + p.val, hP⟩ : Fin 100000) e : S100000x128.Idx) := by
    funext a
    apply Fin.ext
    match a with
    | ⟨0, _⟩ => show win1_3.index t 0 * 10000 + 1 * p.val = t.val * 10000 + p.val; rw [e5]; omega
    | ⟨1, _⟩ => show win1_3.index t 1 * 128 + 1 * e.val = e.val; rw [e6]; omega
  show k1_pay1 (iblk1 V c 0 t) (iblk1 V c 1 t) (iblk1 V c 2 t) (ix2 p e)
    = Cert.Gcn.lin (F := Ideal) (Cert.Gcn.hidden (F := Ideal) (V c main_v44) (V c main_arg3)) (V c main_arg4) (((cfg1.win 3).blk t).view.emb (ix2 p e))
  rw [hemb]
  refine (Body.pay1_apply (iblk1 V c 0 t) (iblk1 V c 1 t) (iblk1 V c 2 t) p e).trans ?_
  refine Eq.trans ?_ (Cert.Gcn.lin_apply (Cert.Gcn.hidden (F := Ideal) (V c main_v44) (V c main_arg3)) (V c main_arg4) ⟨t.val * 10000 + p.val, hP⟩ e).symm
  refine Finset.sum_congr rfl fun k _ => ?_
  rw [Cert.Gcn.hidden_apply, feat_apply V c t p k ⟨t.val * 10000 + p.val, hP⟩ rfl, bias_apply V c t k, weight_apply V c t k e]

/-- An index of the output is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v45).slice (win1_3.rect t)).set ↔ _
  rw [View.set_slice_whole, Rect.mem_set_unit]
  exact Iff.rfl

/-- Every index of the output is in the block of the point its row falls to. -/
theorem cover (i : S100000x128.Idx) : ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 10 := N_1
  have ht : (i 0).val / 10000 < cfg1.N := by rw [hN]; omega
  obtain ⟨-, -, -, -, -, e5, e6⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win1_3.index ⟨(i 0).val / 10000, ht⟩ (1 : Fin 2) * 128 ≤ (i 1).val ∧ (i 1).val < win1_3.index ⟨(i 0).val / 10000, ht⟩ (1 : Fin 2) * 128 + 128
    rw [e6]; omega

/-- The output array after the region, from the arrays the region was entered with. -/
theorem arr_eq (c : Dev nD) :
    (dat1 V c).arrAt 3 cfg1.N
      = Cert.Gcn.lin (F := Ideal) (Cert.Gcn.hidden (F := Ideal) (V c main_v44) (V c main_arg3)) (V c main_arg4) :=
  (dat1 V c).arrAt_eq_of_cover 3 _ (fun t _ => flushed_eq V c t) cover

end Cert.KernelIdeal.Region1

end
-- ==== Proof.KChain.lean ====
/-
  The kernel program's result array as the two-layer function of its arguments, boundary by boundary.

  At the first region's entry the buffers hold the edge ends `S`, `D` and the edge weights `N` (host operations of the
  edge list) and the arguments as launched.  The first region leaves `H0 = x · W1` in its output; the host operations
  between the regions leave the first aggregation `A1 = agg H0`; the second region leaves
  `H1 = max (A1 + b1) 0 · W2`; the last host operations leave `agg H1 + b2`.  No stretch and no region writes the
  edge ends, the weights column or an argument it does not own, so each is carried to where it is read.
-/
import proofs.«178791_j29257317220812_2_alg».proof.Proof.Gen.KernelIdeal.Frame
import proofs.«178791_j29257317220812_2_alg».proof.Proof.KHost
import proofs.«178791_j29257317220812_2_alg».proof.Proof.Region0
import proofs.«178791_j29257317220812_2_alg».proof.Proof.Region1

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edges' first ends, of the launched edge list. -/
abbrev eS := Cert.Gcn.src (F := Ideal) (m ((c : Thread nD τ).loc main_arg1))
/-- The edges' second ends. -/
abbrev eD := Cert.Gcn.dst (F := Ideal) (m ((c : Thread nD τ).loc main_arg1))
/-- The edge weights as a column. -/
abbrev eN := Cert.Gcn.normCol (F := Ideal) (eS m c) (eD m c)
/-- The first layer's weighted features. -/
abbrev eH0 := Cert.Gcn.lin (F := Ideal) (m ((c : Thread nD τ).loc main_arg0)) (m ((c : Thread nD τ).loc main_arg2))
/-- The first aggregation. -/
abbrev eA1 := Cert.Gcn.agg (F := Ideal) (eH0 m c) (eS m c) (eD m c) (eN m c)
/-- The second layer's weighted features. -/
abbrev eH1 := Cert.Gcn.lin (F := Ideal) (Cert.Gcn.hidden (F := Ideal) (eA1 m c) (m ((c : Thread nD τ).loc main_arg3))) (m ((c : Thread nD τ).loc main_arg4))

/-! ## At the first region's entry -/

theorem W2_v3 : W2 m ρ c (Proc.devRef .tc main_v3) = eS m c :=
  (Host.keep01_v3 (W1 m ρ c)).trans (Host.src_eq (W0 m ρ c))
theorem W2_v6 : W2 m ρ c (Proc.devRef .tc main_v6) = eD m c :=
  (Host.keep01_v6 (W1 m ρ c)).trans (Host.dst_eq (W0 m ρ c))
theorem W2_v14 : W2 m ρ c (Proc.devRef .tc main_v14) = Cert.Gcn.dinv (F := Ideal) (eD m c) := by
  refine (Host.where_eq (W1 m ρ c)).trans ?_
  rw [show W1 m ρ c (Proc.devRef .tc main_v12) = _ from Host.pos_eq (W0 m ρ c),
    show W1 m ρ c (Proc.devRef .tc main_v13) = _ from Host.rsqrt_eq (W0 m ρ c),
    show W1 m ρ c (Proc.devRef .tc main_cst_2) = _ from Host.zero_eq (W0 m ρ c)]
  rfl

theorem W3_v3 : W3 m ρ c (Proc.devRef .tc main_v3) = eS m c :=
  (Host.keep02_v3 (W2 m ρ c)).trans (W2_v3 m ρ c)
theorem W3_v6 : W3 m ρ c (Proc.devRef .tc main_v6) = eD m c :=
  (Host.keep02_v6 (W2 m ρ c)).trans (W2_v6 m ρ c)
theorem W3_v30 : W3 m ρ c (Proc.devRef .tc main_v30) = eN m c := by
  refine (Host.norm_eq (W2 m ρ c)).trans ?_
  rw [W2_v14 m ρ c, W2_v3 m ρ c, W2_v6 m ρ c]
  rfl
theorem W3_arg0 : W3 m ρ c (Proc.devRef .tc main_arg0) = m ((c : Thread nD τ).loc main_arg0) := Host.keepPre_arg0 (W0 m ρ c)
theorem W3_arg2 : W3 m ρ c (Proc.devRef .tc main_arg2) = m ((c : Thread nD τ).loc main_arg2) := Host.keepPre_arg2 (W0 m ρ c)
theorem W3_arg3 : W3 m ρ c (Proc.devRef .tc main_arg3) = m ((c : Thread nD τ).loc main_arg3) := Host.keepPre_arg3 (W0 m ρ c)
theorem W3_arg4 : W3 m ρ c (Proc.devRef .tc main_arg4) = m ((c : Thread nD τ).loc main_arg4) := Host.keepPre_arg4 (W0 m ρ c)
theorem W3_arg5 : W3 m ρ c (Proc.devRef .tc main_arg5) = m ((c : Thread nD τ).loc main_arg5) := Host.keepPre_arg5 (W0 m ρ c)

/-! ## At the first region's exit -/

theorem W4_v31 : W4 m ρ c (Proc.devRef .tc main_v31) = eH0 m c :=
  (W4_arr m ρ c 2).trans ((Region0.arr_eq (V3 m ρ) c).trans
    (congrArg₂ (Cert.Gcn.lin (F := Ideal)) (W3_arg0 m ρ c) (W3_arg2 m ρ c)))
theorem W4_v3 : W4 m ρ c (Proc.devRef .tc main_v3) = eS m c := (W4_of_ne m ρ c main_v3 (by decide)).trans (W3_v3 m ρ c)
theorem W4_v6 : W4 m ρ c (Proc.devRef .tc main_v6) = eD m c := (W4_of_ne m ρ c main_v6 (by decide)).trans (W3_v6 m ρ c)
theorem W4_v30 : W4 m ρ c (Proc.devRef .tc main_v30) = eN m c := (W4_of_ne m ρ c main_v30 (by decide)).trans (W3_v30 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)

/-! ## At the second region's entry -/

theorem W5_v44 : W5 m ρ c (Proc.devRef .tc main_v44) = eA1 m c := by
  refine (Host.agg1_eq (W4 m ρ c)).trans ?_
  rw [W4_v31 m ρ c, W4_v3 m ρ c, W4_v6 m ρ c, W4_v30 m ρ c]
theorem W5_v3 : W5 m ρ c (Proc.devRef .tc main_v3) = eS m c := (Host.keep1_v3 (W4 m ρ c)).trans (W4_v3 m ρ c)
theorem W5_v6 : W5 m ρ c (Proc.devRef .tc main_v6) = eD m c := (Host.keep1_v6 (W4 m ρ c)).trans (W4_v6 m ρ c)
theorem W5_v30 : W5 m ρ c (Proc.devRef .tc main_v30) = eN m c := (Host.keep1_v30 (W4 m ρ c)).trans (W4_v30 m ρ c)
theorem W5_arg3 : W5 m ρ c (Proc.devRef .tc main_arg3) = m ((c : Thread nD τ).loc main_arg3) := (Host.keep1_arg3 (W4 m ρ c)).trans (W4_arg3 m ρ c)
theorem W5_arg4 : W5 m ρ c (Proc.devRef .tc main_arg4) = m ((c : Thread nD τ).loc main_arg4) := (Host.keep1_arg4 (W4 m ρ c)).trans (W4_arg4 m ρ c)
theorem W5_arg5 : W5 m ρ c (Proc.devRef .tc main_arg5) = m ((c : Thread nD τ).loc main_arg5) := (Host.keep1_arg5 (W4 m ρ c)).trans (W4_arg5 m ρ c)

/-! ## At the second region's exit -/

theorem W6_v45 : W6 m ρ c (Proc.devRef .tc main_v45) = eH1 m c :=
  (W6_arr m ρ c 3).trans ((Region1.arr_eq (V5 m ρ) c).trans
    (congrArg₂ (Cert.Gcn.lin (F := Ideal))
      (congrArg₂ (Cert.Gcn.hidden (F := Ideal)) (W5_v44 m ρ c) (W5_arg3 m ρ c)) (W5_arg4 m ρ c)))
theorem W6_v3 : W6 m ρ c (Proc.devRef .tc main_v3) = eS m c := (W6_of_ne m ρ c main_v3 (by decide)).trans (W5_v3 m ρ c)
theorem W6_v6 : W6 m ρ c (Proc.devRef .tc main_v6) = eD m c := (W6_of_ne m ρ c main_v6 (by decide)).trans (W5_v6 m ρ c)
theorem W6_v30 : W6 m ρ c (Proc.devRef .tc main_v30) = eN m c := (W6_of_ne m ρ c main_v30 (by decide)).trans (W5_v30 m ρ c)
theorem W6_arg5 : W6 m ρ c (Proc.devRef .tc main_arg5) = m ((c : Thread nD τ).loc main_arg5) := (W6_of_ne m ρ c main_arg5 (by decide)).trans (W5_arg5 m ρ c)

/-! ## The result -/

/-- The result array after the last host operations is the two-layer function of the six arguments. -/
theorem result_eq : W7 m ρ c (Proc.devRef .tc main_v61)
    = Cert.Gcn.out (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (Host.last_eq (W6 m ρ c)).trans ?_
  rw [W6_v45 m ρ c, W6_v3 m ρ c, W6_v6 m ρ c, W6_v30 m ρ c, W6_arg5 m ρ c]
  rfl

end Cert.KernelIdeal.Chain

end
-- ==== Proof.lean ====
/-
  Two graph-convolution layers, `out = agg (max (agg (x · W1) + b1) 0 · W2) + b2`, where `agg` gathers the rows of its
  operand along 600000 edges and 100000 self loops, scales each by the product of the inverse square roots of the
  degrees at the edge's two ends, and adds up what arrives at each node.

  The kernel program computes the two matrix products in two grids of ten row blocks (bias and rectification fused into
  the second), and everything else — the edge ends, the degrees, the edge weights, both aggregations, the output bias —
  by the same host operations as the reference, on whatever node numbers the edge list holds.  On the extended reals a
  row block of a product is that block of the whole product, and a change of float format is the identity, so both
  programs end with the one function `Gcn.out` of the six arguments.  No law of arithmetic beyond that is used, and the
  precondition is not needed for the values.

  `frame_*`: the generated frames of the two kernel programs; the reference's frame is its run with the result dropped.
  `preserves`: the idealization rewrote nothing.  `algebraic`: the kernel program's run with its result array named
  (`Named.run_named`) and that array read boundary by boundary (`Chain.result_eq`), against the reference's run and
  its composed term (`Gcn.ref_eq`).
-/
import proofs.«178791_j29257317220812_2_alg».proof.Defs
import proofs.«178791_j29257317220812_2_alg».proof.Proof.Gen.Kernel
import proofs.«178791_j29257317220812_2_alg».proof.Proof.Gen.Kernel.Skeleton
import proofs.«178791_j29257317220812_2_alg».proof.Proof.Gen.Kernel.Launch
import proofs.«178791_j29257317220812_2_alg».proof.Proof.Gen.Kernel.Points
import proofs.«178791_j29257317220812_2_alg».proof.Proof.Gen.Kernel.Frame
import proofs.«178791_j29257317220812_2_alg».proof.Proof.Gen.KernelIdeal
import proofs.«178791_j29257317220812_2_alg».proof.Proof.Gen.KernelIdeal.Skeleton
import proofs.«178791_j29257317220812_2_alg».proof.Proof.Gen.KernelIdeal.Launch
import proofs.«178791_j29257317220812_2_alg».proof.Proof.Gen.KernelIdeal.Points
import proofs.«178791_j29257317220812_2_alg».proof.Proof.Gen.KernelIdeal.Frame
import proofs.«178791_j29257317220812_2_alg».proof.Proof.Gen.ReferenceIdeal
import proofs.«178791_j29257317220812_2_alg».proof.Proof.Gen.Pre_finite_inputs
import proofs.«178791_j29257317220812_2_alg».proof.Proof.RefRun
import proofs.«178791_j29257317220812_2_alg».proof.Proof.RefValue
import proofs.«178791_j29257317220812_2_alg».proof.Proof.KRun
import proofs.«178791_j29257317220812_2_alg».proof.Proof.KChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs, from memories that agree on the arguments, end with `Gcn.out` of the arguments in their result
    arrays. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    rw [Cert.Gcn.ref_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
